-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel

variable [Facts]

def fn {F : FTy → Type} [FloatOps F] (main_arg0 : FVec F S16384x64 .f32) (main_arg1 : FVec F S16384x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  main_v8
-- ==== Kernel.lean ====
abbrev S16384x64 : Shape := ⟨2, ![16384, 64]⟩
abbrev S64x16384 : Shape := ⟨2, ![64, 16384]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S512x64 : Shape := ⟨2, ![512, 64]⟩
abbrev S512x1 : Shape := ⟨2, ![512, 1]⟩
abbrev S512 : Shape := ⟨1, ![512]⟩
abbrev S64x2048 : Shape := ⟨2, ![64, 2048]⟩
abbrev S1x2048 : Shape := ⟨2, ![1, 2048]⟩
abbrev S512x2048 : Shape := ⟨2, ![512, 2048]⟩

abbrev nBuf : Space → Nat
  | .hbm => 13
  | .vmem => 6
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S64x16384, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1x16384, .f32⟩
  | .hbm, ⟨8, _⟩ => ⟨S16384x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S512x64, .f32⟩
  | .local _ .vmem, ⟨1, _⟩ => ⟨S512x64, .f32⟩
  | .local _ .vmem, ⟨2, _⟩ => ⟨S64x16384, .f32⟩
  | .local _ .vmem, ⟨3, _⟩ => ⟨S1x16384, .f32⟩
  | .local _ .vmem, ⟨4, _⟩ => ⟨S512x1, .f32⟩
  | .local _ .vmem, ⟨5, _⟩ => ⟨S512x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S16384x64_S64x16384_1_0 : S16384x64.Transposes [1, 0] S64x16384
  reducesTo_S16384x64_S16384_d1 : S16384x64.ReducesTo [1] S16384
  h_S_ : 0 < S_.numel
  bcast_S16384_S16384x1_0 : S16384.BroadcastsInDim S16384x1 (![0] : Fin 1 → Fin S16384x1.rank)
  transposes_S16384x1_S1x16384_1_0 : S16384x1.Transposes [1, 0] S1x16384
  inb_S512x64_S512x64_0_0 : ∀ a, (![0, 0] : Fin 2 → Nat) a + S512x64.size a ≤ S512x64.size a
  h_S512x64 : 0 < S512x64.numel
  reduces_S512x64_S512 : S512x64.Reduces [1] S512
  shapeCasts_S512_S512x1 : S512.ShapeCasts S512x1
  inb_S64x16384_S64x2048_0_0 : ∀ a, (![0, 0] : Fin 2 → Nat) a + S64x2048.size a ≤ S64x16384.size a
  h_S64x2048 : 0 < S64x2048.numel
  shapeCasts_S64x2048_S64x2048 : S64x2048.ShapeCasts S64x2048
  inb_S1x16384_S1x2048_0_0 : ∀ a, (![0, 0] : Fin 2 → Nat) a + S1x2048.size a ≤ S1x16384.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  inb_S64x16384_S64x2048_0_2048 : ∀ a, (![0, 2048] : Fin 2 → Nat) a + S64x2048.size a ≤ S64x16384.size a
  inb_S1x16384_S1x2048_0_2048 : ∀ a, (![0, 2048] : Fin 2 → Nat) a + S1x2048.size a ≤ S1x16384.size a
  inb_S64x16384_S64x2048_0_4096 : ∀ a, (![0, 4096] : Fin 2 → Nat) a + S64x2048.size a ≤ S64x16384.size a
  inb_S1x16384_S1x2048_0_4096 : ∀ a, (![0, 4096] : Fin 2 → Nat) a + S1x2048.size a ≤ S1x16384.size a
  inb_S64x16384_S64x2048_0_6144 : ∀ a, (![0, 6144] : Fin 2 → Nat) a + S64x2048.size a ≤ S64x16384.size a
  inb_S1x16384_S1x2048_0_6144 : ∀ a, (![0, 6144] : Fin 2 → Nat) a + S1x2048.size a ≤ S1x16384.size a
  inb_S64x16384_S64x2048_0_8192 : ∀ a, (![0, 8192] : Fin 2 → Nat) a + S64x2048.size a ≤ S64x16384.size a
  inb_S1x16384_S1x2048_0_8192 : ∀ a, (![0, 8192] : Fin 2 → Nat) a + S1x2048.size a ≤ S1x16384.size a
  inb_S64x16384_S64x2048_0_10240 : ∀ a, (![0, 10240] : Fin 2 → Nat) a + S64x2048.size a ≤ S64x16384.size a
  inb_S1x16384_S1x2048_0_10240 : ∀ a, (![0, 10240] : Fin 2 → Nat) a + S1x2048.size a ≤ S1x16384.size a
  inb_S64x16384_S64x2048_0_12288 : ∀ a, (![0, 12288] : Fin 2 → Nat) a + S64x2048.size a ≤ S64x16384.size a
  inb_S1x16384_S1x2048_0_12288 : ∀ a, (![0, 12288] : Fin 2 → Nat) a + S1x2048.size a ≤ S1x16384.size a
  inb_S64x16384_S64x2048_0_14336 : ∀ a, (![0, 14336] : Fin 2 → Nat) a + S64x2048.size a ≤ S64x16384.size a
  inb_S1x16384_S1x2048_0_14336 : ∀ a, (![0, 14336] : Fin 2 → Nat) a + S1x2048.size a ≤ S1x16384.size a
  inb_S512x1_S512x1_0_0 : ∀ a, (![0, 0] : Fin 2 → Nat) a + S512x1.size a ≤ S512x1.size a
  h_S512x1 : 0 < S512x1.numel
  reducesTo_S16384x1_S_d0_1 : S16384x1.ReducesTo [0, 1] S_
  dot_S512x64_S64x2048_S512x2048_1_0_0_1_n_n_wf : DotDims.WF S512x64 S64x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S16384x64.size a
  hwx0_0 : ∀ i : grid0.Coords, EltTy.bits .f32 = 32 ∨ (Rect.block (s := S16384x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16384.size a ≤ S64x16384.size a
  hwx0_1 : ∀ i : grid0.Coords, EltTy.bits .f32 = 32 ∨ (Rect.block (s := S64x16384) S64x16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16384.size a ≤ S1x16384.size a
  hwx0_2 : ∀ i : grid0.Coords, EltTy.bits .f32 = 32 ∨ (Rect.block (s := S1x16384) S1x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S16384x1.size a
  hwx0_3 : ∀ i : grid0.Coords, EltTy.bits .f32 = 32 ∨ (Rect.block (s := S16384x1) S512x1.size (cc0_transform_3 i) (hinb0_3 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf

abbrev win0_0 : Pipeline.Window sig grid0 :=
  Pipeline.Window.ofSpec (Memref.whole main_arg1) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x16384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S64x16384 : Shape := ⟨2, ![64, 16384]⟩
abbrev S16384x16384 : Shape := ⟨2, ![16384, 16384]⟩

abbrev nBuf : Space → Nat
  | .hbm => 30
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x64, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S1x16384, .f32⟩
  | .hbm, ⟨11, _⟩ => ⟨S64x16384, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S_, .f32⟩
  | .hbm, ⟨21, _⟩ => ⟨S16384x16384, .f32⟩
  | .hbm, ⟨22, _⟩ => ⟨S16384x16384, .f32⟩
  | .hbm, ⟨23, _⟩ => ⟨S16384x16384, .f32⟩
  | .hbm, ⟨24, _⟩ => ⟨S_, .f32⟩
  | .hbm, ⟨25, _⟩ => ⟨S16384, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  transposes_S16384x1_S1x16384_1_0 : S16384x1.Transposes [1, 0] S1x16384
  transposes_S16384x64_S64x16384_1_0 : S16384x64.Transposes [1, 0] S64x16384
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  dot_S16384x64_S64x16384_S16384x16384_1_0_0_1_n_n_wf : DotDims.WF S16384x64 S64x16384 S16384x16384 [1] [0] [0] [1] [] []

variable [Facts₀]

def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.Nearest.lean ====
/-
  The mathematics both programs compute, stated once and free of either program.

  For point sets `PF` and `X` (16384 rows of 64 coordinates each) write, for a row `p` of `PF` and a row `j` of `X`,
  `a p = Σ_k PF[p,k]²`, `b j = Σ_k X[j,k]²`, `c p j = Σ_k PF[p,k]·X[j,k]`, so that the squared distance is
  `a p + b j − 2·c p j`. The quantity of interest is the mean over `p` of the distance from `PF[p]` to its nearest
  row of `X`: `(Σ_p min_j √(max (a p + b j − 2·c p j) 0)) / 16384`.

  One program takes the minimum over `j` of the clamped roots (`nearestRef`). The other first takes the minimum over `j`
  of `b j − 2·c p j` — as eight minima over consecutive runs of 2048 rows, folded together — and only then adds `a p`,
  clamps and takes one root (`nearest`). They agree on the extended reals because
    • addition there is associative, so `(a + b) − t = a + (b − t)`;
    • `v ↦ √(max (a + v) 0)` is monotone (addition, `max` and the root each are), and a monotone map of a linear order
      commutes with the minimum of a nonempty finite family (`map_rowMin`);
    • a minimum over 16384 indices is the minimum of the minima over its eight runs of 2048 (`chunks_min`).
  No step needs an entry to be finite.
-/
import Idealize.ShloMosaic.PureOps.Ideal
import Idealize.ShloMosaic.PureOps.Ideal.Laws
import Idealize.ShloMosaic.Lib.ValueIdx

noncomputable section

open scoped BigOperators

namespace Cert.Nearest

open Idealize.ShloMosaic Idealize.ShloMosaic.ValueIdx

/-- A point set: 16384 rows of 64 coordinates. -/
abbrev Pts := FVec Ideal (⟨2, ![16384, 64]⟩ : Shape) .f32

/-- The literals the programs share, kept as the words they print. -/
abbrev two : EReal := Ideal.ofBits .f32 0x40000000#32
abbrev zero : EReal := Ideal.ofBits .f32 0x00000000#32
abbrev top : EReal := Ideal.ofBits .f32 0x7F800000#32
abbrev count : EReal := Ideal.ofBits .f32 0x46800000#32

/-- The word `0x7F800000` is `+∞`, the top of the extended reals. -/
theorem top_eq : top = ⊤ := by
  simp [Ideal.ofBits, Ideal.ieee]

/-- The minimum of a finite family, folded from `t`. -/
def rowMin {n : ℕ} (t : EReal) (v : Fin n → EReal) : EReal := (Finset.univ : Finset (Fin n)).fold min t v

/-- `c` is below the folded minimum exactly when it is below the start and below every member. -/
theorem le_rowMin {n : ℕ} (t : EReal) (v : Fin n → EReal) (c : EReal) : c ≤ rowMin t v ↔ c ≤ t ∧ ∀ j, c ≤ v j := by
  unfold rowMin
  rw [Finset.le_fold_min]
  simp

/-- The square root of the extended reals is monotone (below zero it is the bottom element). -/
theorem sqrt_mono : Monotone Ideal.sqrt := by
  intro x y hxy
  induction x using EReal.rec with
  | bot => simp
  | top =>
    have hy : y = ⊤ := top_le_iff.mp hxy
    subst hy
    exact le_rfl
  | coe r =>
    induction y using EReal.rec with
    | bot => simp at hxy
    | top => simp
    | coe s =>
      have hrs : r ≤ s := EReal.coe_le_coe_iff.mp hxy
      simp only [Ideal.sqrt_coe]
      split_ifs with h1 h2
      · exact le_rfl
      · exact bot_le
      · exfalso; linarith
      · exact EReal.coe_le_coe_iff.mpr (Real.sqrt_le_sqrt hrs)

/-- `v ↦ √(max (a + v) z)` is monotone. -/
theorem clampRoot_mono (a z : EReal) : Monotone fun v : EReal => Ideal.sqrt (max (a + v) z) := by
  intro v w hvw
  exact sqrt_mono (max_le_max (add_le_add le_rfl hvw) le_rfl)

/-- A monotone map commutes with the minimum, from `+∞`, of a nonempty finite family. -/
theorem map_rowMin {n : ℕ} (hn : 0 < n) (f : EReal → EReal) (hf : Monotone f) (v : Fin n → EReal) :
    f (rowMin ⊤ v) = rowMin ⊤ fun j => f (v j) := by
  have h1 : f (rowMin ⊤ v) = rowMin (f ⊤) fun j => f (v j) := by
    unfold rowMin
    exact (Finset.fold_hom (op := min) (op' := min) (m := f) (fun x y => hf.map_min)).symm
  rw [h1]
  apply eq_of_forall_le_iff
  intro c
  simp only [le_rowMin]
  constructor
  · rintro ⟨_, h⟩
    exact ⟨le_top, h⟩
  · rintro ⟨_, h⟩
    exact ⟨(h ⟨0, hn⟩).trans (hf le_top), h⟩

/-- Run `c` of 2048 consecutive members of a family of 16384. -/
def chunk (v : Fin 16384 → EReal) (c : Fin 8) (q : Fin 2048) : EReal := v ⟨2048 * c.val + q.val, by omega⟩

/-- If `c` is below every member of run `k`, it is below each member of the family whose index divided by 2048 is `k`: that member sits in the run at position index mod 2048. -/
private theorem chunk_cover (v : Fin 16384 → EReal) (c : EReal) (k : Fin 8) (h : ∀ q, c ≤ chunk v k q) (j : Fin 16384)
    (hj : j.val / 2048 = k.val) : c ≤ v j := by
  have hq := h ⟨j.val % 2048, Nat.mod_lt _ (by norm_num)⟩
  unfold chunk at hq
  exact hq.trans (le_of_eq (congrArg v (Fin.ext (by simp only; omega))))

/-- The minima of the eight runs, folded together from `t`, are the minimum of the whole family. -/
theorem chunks_min (t : EReal) (v : Fin 16384 → EReal) :
    min (min (min (min (min (min (min (min t (rowMin t (chunk v 0))) (rowMin t (chunk v 1))) (rowMin t (chunk v 2)))
      (rowMin t (chunk v 3))) (rowMin t (chunk v 4))) (rowMin t (chunk v 5))) (rowMin t (chunk v 6))) (rowMin t (chunk v 7))
      = rowMin t v := by
  apply eq_of_forall_le_iff
  intro c
  simp only [le_min_iff, le_rowMin]
  constructor
  · rintro ⟨⟨⟨⟨⟨⟨⟨⟨ht, _, h0⟩, _, h1⟩, _, h2⟩, _, h3⟩, _, h4⟩, _, h5⟩, _, h6⟩, _, h7⟩
    refine ⟨ht, fun j => ?_⟩
    rcases (by have := j.isLt; omega : j.val / 2048 = 0 ∨ j.val / 2048 = 1 ∨ j.val / 2048 = 2 ∨ j.val / 2048 = 3
        ∨ j.val / 2048 = 4 ∨ j.val / 2048 = 5 ∨ j.val / 2048 = 6 ∨ j.val / 2048 = 7) with h | h | h | h | h | h | h | h
    · exact chunk_cover v c 0 h0 j h
    · exact chunk_cover v c 1 h1 j h
    · exact chunk_cover v c 2 h2 j h
    · exact chunk_cover v c 3 h3 j h
    · exact chunk_cover v c 4 h4 j h
    · exact chunk_cover v c 5 h5 j h
    · exact chunk_cover v c 6 h6 j h
    · exact chunk_cover v c 7 h7 j h
  · rintro ⟨ht, h⟩
    exact ⟨⟨⟨⟨⟨⟨⟨⟨ht, ht, fun q => h _⟩, ht, fun q => h _⟩, ht, fun q => h _⟩, ht, fun q => h _⟩, ht, fun q => h _⟩,
      ht, fun q => h _⟩, ht, fun q => h _⟩, ht, fun q => h _⟩

/-- `Σ_k A[r,k]²`. -/
def sqNorm (A : Pts) (r : Fin 16384) : EReal := ∑ k : Fin 64, A (ix2 r k) * A (ix2 r k)
/-- `Σ_k PF[p,k]·X[j,k]`. -/
def cross (PF X : Pts) (p j : Fin 16384) : EReal := ∑ k : Fin 64, PF (ix2 p k) * X (ix2 j k)
/-- The part of the squared distance that depends on `j`: `b j − 2·c p j`. -/
def offset (PF X : Pts) (p j : Fin 16384) : EReal := sqNorm X j - two * cross PF X p j

/-- Distance to the nearest row, the minimum taken BEFORE the root. -/
def nearest (PF X : Pts) (p : Fin 16384) : EReal :=
  Ideal.sqrt (max (sqNorm PF p + rowMin top (offset PF X p)) zero)

/-- Distance to the nearest row, the minimum taken over the roots. -/
def nearestRef (PF X : Pts) (p : Fin 16384) : EReal :=
  rowMin top fun j => Ideal.sqrt (max ((sqNorm PF p + sqNorm X j) - two * cross PF X p j) zero)

/-- The two orders agree. -/
theorem nearestRef_eq (PF X : Pts) (p : Fin 16384) : nearestRef PF X p = nearest PF X p := by
  unfold nearestRef nearest
  rw [top_eq]
  refine Eq.trans ?_ (map_rowMin (by norm_num) (fun w => Ideal.sqrt (max (sqNorm PF p + w) zero))
    (clampRoot_mono _ _) (offset PF X p)).symm
  congr 1
  funext j
  simp only [offset, sub_eq_add_neg, add_assoc]

/-- The mean of the nearest distances: `(s + Σ_p nearest p) / 16384`, `s` the sum's start (both programs start from the zero word). -/
def meanNearest (PF X : Pts) : EReal := Ideal.div (zero + ∑ p : Fin 16384, nearest PF X p) count

end Cert.Nearest

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.LibColumn.lean ====
/-
  A column of per-row values used against a matrix.

  A vector of length `a` written as an `[a, 1]` column (a reshape that appends a unit axis) holds, at row `i`, the
  vector's entry `i`; and an `[a, 1]` column broadcast along the second axis to `[a, b]` holds, at `(p, c)`, the
  column's entry of row `p`, whatever the column coordinate `c`. Both are read off the general index lemmas for a
  shape cast (equal row-major positions) and for a broadcast (unit axes read at 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.LibMinReduce.lean ====
/-
  A minimum along one axis, read at an index, on the extended reals.

  A reduction by minimum over ONE axis of an array, read at an index `j` of the reduced shape, is the fold of `min`, from the
  value of the start word, over that axis's coordinates `k` of the array at `j` with `k` inserted on the reduced axis. It is
  the twin, for the minimum, of the reading of a single-axis maximum: the reduction is a fold over the set of indices that
  drop to `j`, and that set is the image of the axis's coordinates under the insertion.
-/
import Idealize.ShloMosaic.PureOps.Ideal.Laws
import Idealize.ShloMosaic.PureOps.Reduce

noncomputable section

namespace Cert.LibMinReduce

open Idealize.ShloMosaic

/-- A minimum along one axis, read at a reduced index: the fold of `min` from the start word's value over that axis's
    coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Cert.LibMinReduce

end
-- ==== Proof.Body.lean ====
/-
  What one grid point's body leaves in its output block, entry by entry.

  The body holds 512 rows `P` of one point set (64 coordinates each), and the whole of the other set transposed, `XT`
  (64 × 16384), beside the row `XS` (1 × 16384) of its squared norms. For each of eight runs of 2048 columns it forms
  `XS[0, j] − 2·Σ_k P[r, k]·XT[k, j]` and takes the minimum along the run; it folds the eight minima together from `+∞`,
  adds the row's own squared norm `Σ_k P[r, k]²`, clamps at zero and takes the root. By `chunks_min` the eight folded
  minima are the one minimum over all 16384 columns, so entry `(r, 0)` of the block is
  `√(max (Σ_k P[r,k]² + min_j (XS[0,j] − 2·Σ_k P[r,k]·XT[k,j])) 0)`.
-/
import proofs.«141313_j52467320488009_2_alg».proof.Proof.Gen.KernelIdeal.Frame
import proofs.«141313_j52467320488009_2_alg».proof.Proof.Nearest
import proofs.«141313_j52467320488009_2_alg».proof.Proof.LibPlainDot
import proofs.«141313_j52467320488009_2_alg».proof.Proof.LibColumn
import proofs.«141313_j52467320488009_2_alg».proof.Proof.LibMinReduce
import Idealize.ShloMosaic.Lib.ValueLayout
import Idealize.ShloMosaic.Lib.Pipeline.Value
import Idealize.ShloMosaic.PureOps.Ideal.Laws

noncomputable section

open scoped BigOperators

namespace Cert.Body

open Idealize.ShloMosaic Idealize.ShloMosaic.ValueIdx Cert.KernelIdeal Cert.KernelIdeal.Gen Cert.Nearest

/-- One run's column of minima: for every row `r`, the minimum over the run's 2048 columns `q` of
    `xs[0, q] − 2·(P · xt)[r, q]`. -/
def laneMin (P : FVec Ideal S512x64 .f32) (xt : FVec Ideal S64x2048 .f32) (xs : FVec Ideal S1x2048 .f32) : FVec Ideal S512x1 .f32 :=
  shapeCast S512x1
    (multiReduction .minimumf [1] S512
      (subf (broadcastTo S512x2048 (shapeCast S1x2048 xs shapeCasts_S1x2048_S1x2048) broadcasts_S1x2048_S512x2048)
        (mulf (broadcast S512x2048 (Scalar.ofBits .f32 0x40000000#32))
          (matmul dot_S512x64_S64x2048_S512x2048_1_0_0_1_n_n (some .fp32) P (shapeCast S64x2048 xt shapeCasts_S64x2048_S64x2048)
            (constant S512x2048 .f32 0x00000000#32))))
      0x7F800000#32 reduces_S512x2048_S512 (.inl rfl) rfl)
    shapeCasts_S512_S512x1

/-- The run's minimum at row `r`. -/
theorem laneMin_apply (P : FVec Ideal S512x64 .f32) (xt : FVec Ideal S64x2048 .f32) (xs : FVec Ideal S1x2048 .f32)
    (r : Fin 512) (u : Fin 1) :
    laneMin P xt xs (ix2 r u)
      = rowMin top fun q : Fin 2048 => xs (ix2 (0 : Fin 1) q) - two * ∑ k : Fin 64, P (ix2 r k) * xt (ix2 k q) := by
  unfold laneMin
  rw [Cert.LibColumn.shapeCast_a_a1_apply]
  refine (Cert.LibMinReduce.multiReduction_minimumf_single (s := S512x2048) (t := S512) (a := 1) (φ := .f32) _ 0x7F800000#32
    reduces_S512x2048_S512 (.inl rfl) rfl (ix1 r)).trans ?_
  unfold rowMin
  refine Finset.fold_congr fun (q : Fin 2048) _ => ?_
  show subf _ _ (reduces_S512x2048_S512.lift (ix1 r) q) = _
  have e : reduces_S512x2048_S512.lift (ix1 r) q = ix2 r q :=
    funext fun a => Fin.ext (by match a with | ⟨0, _⟩ => rfl | ⟨1, _⟩ => rfl)
  rw [e, subf_apply, mulf_apply, broadcast_apply, broadcastTo_1b_ab_apply, shapeCast_self, shapeCast_self]
  refine congrArg (fun z => xs (ix2 (0 : Fin 1) q) - two * z) ?_
  exact Cert.LibPlainDot.matmul_zero_apply dot_S512x64_S64x2048_S512x2048_1_0_0_1_n_n rfl rfl
    (fun j c => rfl) (fun j c => rfl) rfl rfl (some .fp32) P xt r q

/-- Entry `r` of the result for rows `P` (any number of them) against the transposed set `XT` and its squared norms `XS`:
    `√(max (Σ_k P[r,k]² + min_j (XS[0,j] − 2·Σ_k P[r,k]·XT[k,j])) 0)`. -/
def rowValue {n : ℕ} (P : FVec Ideal (⟨2, ![n, 64]⟩ : Shape) .f32) (XT : FVec Ideal S64x16384 .f32) (XS : FVec Ideal S1x16384 .f32)
    (r : Fin n) : EReal :=
  Ideal.sqrt (max ((∑ k : Fin 64, P (ix2 r k) * P (ix2 r k))
    + rowMin top fun j : Fin 16384 => XS (ix2 (0 : Fin 1) j) - two * ∑ k : Fin 64, P (ix2 r k) * XT (ix2 k j)) zero)

/-- The whole-block offsets are zero. -/
theorem offs_zero : (![0, 0] : Fin 2 → Nat) = fun _ => 0 := funext fun a => by fin_cases a <;> rfl

/-- A row's own squared norm, as the body forms it: the sum along the row of the squares, kept as a column. -/
theorem sqnorm_apply (P : FVec Ideal S512x64 .f32) (r : Fin 512) (u : Fin 1) :
    k0_pay2 (F := Ideal) P (ix2 r u) = ∑ k : Fin 64, P (ix2 r k) * P (ix2 r k) := by
  unfold k0_pay2
  show shapeCast S512x1 (multiReduction .add [1] S512 (mulf P P) 0x00000000#32 reduces_S512x64_S512 (.inl rfl) rfl)
    shapeCasts_S512_S512x1 (ix2 r u) = _
  rw [Cert.LibColumn.shapeCast_a_a1_apply]
  refine (Ideal.multiReduction_add_single (s := S512x64) (t := S512) (a := 1) (φ := .f32) _ 0x00000000#32
    reduces_S512x64_S512 (.inl rfl) rfl (ix1 r)).trans ?_
  refine Finset.sum_congr rfl fun (k : Fin 64) _ => ?_
  have e : reduces_S512x64_S512.lift (ix1 r) k = ix2 r k :=
    funext fun a => Fin.ext (by match a with | ⟨0, _⟩ => rfl | ⟨1, _⟩ => rfl)
  rw [e]; rfl

/-- The first two runs' minima folded from `+∞`. -/
theorem fold_first (P : FVec Ideal S512x64 .f32) (v5 v17 : FVec Ideal S64x2048 .f32) (v7 v19 : FVec Ideal S1x2048 .f32) :
    k0_pay3 (F := Ideal) P v5 v7 v17 v19
      = minimumf (minimumf (broadcast S512x1 (Scalar.ofBits .f32 0x7F800000#32)) (laneMin P v5 v7)) (laneMin P v17 v19) := rfl

/-- The next three runs' minima folded onto a running minimum `w`. -/
theorem fold_middle (P : FVec Ideal S512x64 .f32) (w : FVec Ideal S512x1 .f32) (xs2 v43 v55 : FVec Ideal S1x2048 .f32)
    (xt2 v41 v53 : FVec Ideal S64x2048 .f32) :
    k0_pay7 (F := Ideal) P w (k0_pay4 xs2) (k0_pay5 P xt2) k0_pay6 v41 v43 v53 v55
      = minimumf (minimumf (minimumf w (laneMin P xt2 xs2)) (laneMin P v41 v43)) (laneMin P v53 v55) := rfl

/-- The last three runs' minima folded on, the row's squared norm `a` added, the clamp at zero and the root. -/
theorem fold_last (P : FVec Ideal S512x64 .f32) (a w : FVec Ideal S512x1 .f32) (xs5 v79 v91 : FVec Ideal S1x2048 .f32)
    (xt5 v77 v89 : FVec Ideal S64x2048 .f32) :
    k0_pay1 (F := Ideal) P a w (k0_pay8 P xt5 xs5) v77 v79 v89 v91
      = sqrt (maximumf (addf a (minimumf (minimumf (minimumf w (laneMin P xt5 xs5)) (laneMin P v77 v79)) (laneMin P v89 v91)))
          (broadcast S512x1 (Scalar.ofBits .f32 0x00000000#32))) := rfl

/-- A run's minimum with the run's columns named as columns of the whole arrays: run `c` starts at column `2048·c`. -/
theorem run_min (x0 : FVec Ideal S512x64 .f32) (x1 : FVec Ideal S64x16384 .f32) (x2 : FVec Ideal S1x16384 .f32)
    (r : Fin 512) (u : Fin 1) (c : Fin 8) (o : ℕ) (ho : o = 2048 * c.val)
    (inb1 : ∀ a, (![0, o] : Fin 2 → ℕ) a + S64x2048.size a ≤ S64x16384.size a)
    (inb2 : ∀ a, (![0, o] : Fin 2 → ℕ) a + S1x2048.size a ≤ S1x16384.size a) :
    laneMin x0 (View.ld (Val := Elt Ideal) (e' := .f32) x1 (Rect.unit (s := S64x16384) ![0, o] S64x2048.size inb1))
        (View.ld (Val := Elt Ideal) (e' := .f32) x2 (Rect.unit (s := S1x16384) ![0, o] S1x2048.size inb2)) (ix2 r u)
      = rowMin top (chunk (fun j : Fin 16384 => x2 (ix2 (0 : Fin 1) j) - two * ∑ k : Fin 64, x0 (ix2 r k) * x1 (ix2 k j)) c) := by
  rw [laneMin_apply]
  unfold rowMin
  refine Finset.fold_congr fun (q : Fin 2048) _ => ?_
  unfold chunk
  have e2 : View.ld (Val := Elt Ideal) (e' := .f32) x2 (Rect.unit (s := S1x16384) ![0, o] S1x2048.size inb2) (ix2 (0 : Fin 1) q)
      = x2 (ix2 (0 : Fin 1) ⟨2048 * c.val + q.val, by omega⟩) :=
    congrArg x2 (funext fun a => Fin.ext (by
      match a with
      | ⟨0, _⟩ => rfl
      | ⟨1, _⟩ => show o + 1 * q.val = 2048 * c.val + q.val; omega))
  have e1 : ∀ k : Fin 64, View.ld (Val := Elt Ideal) (e' := .f32) x1 (Rect.unit (s := S64x16384) ![0, o] S64x2048.size inb1) (ix2 k q)
      = x1 (ix2 k ⟨2048 * c.val + q.val, by omega⟩) := fun k =>
    congrArg x1 (funext fun a => Fin.ext (by
      match a with
      | ⟨0, _⟩ => show 0 + 1 * k.val = k.val; omega
      | ⟨1, _⟩ => show o + 1 * q.val = 2048 * c.val + q.val; omega))
  rw [e2]; simp only [e1]

/-- The folded column read at an entry, for any eight run columns and any column `a` of squared norms: the root of the
    clamped sum of `a`'s entry and the eight entries' minimum folded from `+∞`. -/
theorem folded_apply (a L0 L1 L2 L3 L4 L5 L6 L7 : FVec Ideal S512x1 .f32) (i : S512x1.Idx) :
    sqrt (maximumf (addf a (minimumf (minimumf (minimumf (minimumf (minimumf (minimumf (minimumf (minimumf
        (broadcast S512x1 (Scalar.ofBits .f32 0x7F800000#32)) L0) L1) L2) L3) L4) L5) L6) L7))
      (broadcast S512x1 (Scalar.ofBits .f32 0x00000000#32))) i
      = Ideal.sqrt (max (a i + min (min (min (min (min (min (min (min top (L0 i)) (L1 i)) (L2 i)) (L3 i)) (L4 i)) (L5 i)) (L6 i)) (L7 i))
          zero) := rfl

/-- The body's output block, entry by entry. -/
theorem out_apply (x0 : FVec Ideal S512x64 .f32) (x1 : FVec Ideal S64x16384 .f32) (x2 : FVec Ideal S1x16384 .f32)
    (r : Fin 512) (u : Fin 1) : out0_3 (F := Ideal) x0 x1 x2 (ix2 r u) = rowValue x0 x1 x2 r := by
  unfold out0_3
  rw [View.canon_unit_zero offs_zero]
  simp only [View.ld_unit_zero (S := S512x64) offs_zero]
  rw [fold_last, fold_middle, fold_first, folded_apply]
  rw [sqnorm_apply,
    run_min x0 x1 x2 r u 0 0 (by decide), run_min x0 x1 x2 r u 1 2048 (by decide), run_min x0 x1 x2 r u 2 4096 (by decide),
    run_min x0 x1 x2 r u 3 6144 (by decide), run_min x0 x1 x2 r u 4 8192 (by decide), run_min x0 x1 x2 r u 5 10240 (by decide),
    run_min x0 x1 x2 r u 6 12288 (by decide), run_min x0 x1 x2 r u 7 14336 (by decide), chunks_min]
  rfl

end Cert.Body

end
-- ==== Proof.Blocks.lean ====
/-
  From blocks to the array.

  The grid has 32 points. At point `t` the first point set is staged in blocks of 512 rows — the block holds rows
  `512·t … 512·t + 511` of the array, all 64 coordinates — while the transposed second set (64 × 16384) and the row of its
  squared norms (1 × 16384) are staged whole at every point: their block index is `(0, 0)` and the block is the array. The
  output (16384 × 1) is written back in blocks of 512 rows, block `t` at point `t`.

  A block's coordinate in its array is always `index × size + coordinate inside the block`. So entry `(r, 0)` of the
  block written back at point `t` is the row value of array row `512·t + r`: the row value reads row `r` of the staged
  rows only, which is row `512·t + r` of the array, and reads the other two arrays whole. The 32 blocks of 512 rows cover the
  16384 rows — row `p` lies in block `p / 512` — so after the run the output array holds at row `p` the row value of row
  `p` of the three arrays as the region found them.
-/
import proofs.«141313_j52467320488009_2_alg».proof.Proof.Gen.KernelIdeal.Frame
import proofs.«141313_j52467320488009_2_alg».proof.Proof.Body
import Idealize.ShloMosaic.Lib.Pipeline.Value
import Idealize.ShloMosaic.Lib.ValueIdx

set_option maxRecDepth 16384

noncomputable section

open scoped BigOperators

namespace Cert.Blocks

open Idealize.ShloMosaic Idealize.ShloMosaic.ValueIdx Cert.KernelIdeal Cert.KernelIdeal.Gen

/-- The block indices over the grid, decided point by point: the staged rows move with the output's rows and stay in the first
    column of blocks, the two arrays staged whole stay at block `(0, 0)`, and the output's row block index is at most 31. -/
theorem idx_facts : ∀ t : Fin cfg0.N, win0_0.index t (0 : Fin 2) = win0_3.index t (0 : Fin 2) ∧ win0_0.index t (1 : Fin 2) = 0
    ∧ win0_1.index t 0 = 0 ∧ win0_1.index t 1 = 0 ∧ win0_2.index t 0 = 0 ∧ win0_2.index t 1 = 0
    ∧ win0_3.index t (1 : Fin 2) = 0 ∧ win0_3.index t (0 : Fin 2) ≤ 31 :=
  (by decide +kernel : ∀ t : Fin grid0.N, _)

/-- Every one of the 32 row blocks of the output is some point's. -/
theorem idx_onto : ∀ q : Fin 32, ∃ t : Fin cfg0.N, win0_3.index t = ![q.val, 0] :=
  (by decide +kernel : ∀ q : Fin 32, ∃ t : Fin grid0.N, win0_3.index t = ![q.val, 0])

/-- Row `r` of the block of point `t` is a row of the array: `512·t + r < 16384`. -/
theorem row_lt (t : Fin cfg0.N) (r : Fin 512) : 512 * win0_3.index t (0 : Fin 2) + r.val < 16384 := by
  obtain ⟨-, -, -, -, -, -, -, e7⟩ := idx_facts t
  have := r.isLt
  omega

/-- The output array as one function of the three staged arrays as the region finds them: at row `i 0`, that row's value. -/
def G (m : (ℓ : Loc nD τ sig) → Buf (Elt Ideal) ℓ) (c : Dev nD) : S16384x1.Idx → EReal := fun i =>
  Cert.Body.rowValue (n := 16384) (V m c main_arg1) (V m c main_v0) (V m c main_v4) ⟨(i 0).val, idx2_lt0 i⟩

/-- The staged rows at point `t`: entry `(r, k)` of the block is entry `(512·t + r, k)` of the array. -/
theorem blk0_apply (m : (ℓ : Loc nD τ sig) → Buf (Elt Ideal) ℓ) (c : Dev nD) (t : Fin cfg0.N) (r : Fin 512) (k : Fin 64) :
    (iblk m c 0 t : Vec Ideal S512x64 .f32) (ix2 r k)
      = (V m c main_arg1 : S16384x64.Idx → EReal) (ix2 ⟨512 * win0_3.index t (0 : Fin 2) + r.val, row_lt t r⟩ k) := by
  obtain ⟨e0, e1, -, -, -, -, -, e7⟩ := idx_facts t
  unfold iblk
  show V m c main_arg1 (((cfg0.win 0).blk t).view.emb (ix2 r k)) = V m c main_arg1 _
  refine congrArg (V m c main_arg1) ?_
  funext a
  apply Fin.ext
  match a with
  | ⟨0, _⟩ => show win0_0.index t (0 : Fin 2) * 512 + 1 * r.val = 512 * win0_3.index t (0 : Fin 2) + r.val; omega
  | ⟨1, _⟩ => show win0_0.index t (1 : Fin 2) * 64 + 1 * k.val = k.val; omega

/-- The transposed set is staged whole: the block at any point is the array. -/
theorem blk1_apply (m : (ℓ : Loc nD τ sig) → Buf (Elt Ideal) ℓ) (c : Dev nD) (t : Fin cfg0.N) (k : Fin 64) (j : Fin 16384) :
    (iblk m c 1 t : Vec Ideal S64x16384 .f32) (ix2 k j) = (V m c main_v0 : S64x16384.Idx → EReal) (ix2 k j) := by
  obtain ⟨-, -, e2, e3, -, -, -, -⟩ := idx_facts t
  unfold iblk
  show V m c main_v0 (((cfg0.win 1).blk t).view.emb (ix2 k j)) = V m c main_v0 _
  refine congrArg (V m c main_v0) ?_
  funext a
  apply Fin.ext
  match a with
  | ⟨0, _⟩ => show win0_1.index t (0 : Fin 2) * 64 + 1 * k.val = k.val; omega
  | ⟨1, _⟩ => show win0_1.index t (1 : Fin 2) * 16384 + 1 * j.val = j.val; omega

/-- The row of squared norms is staged whole: the block at any point is the array. -/
theorem blk2_apply (m : (ℓ : Loc nD τ sig) → Buf (Elt Ideal) ℓ) (c : Dev nD) (t : Fin cfg0.N) (z : Fin 1) (j : Fin 16384) :
    (iblk m c 2 t : Vec Ideal S1x16384 .f32) (ix2 z j) = (V m c main_v4 : S1x16384.Idx → EReal) (ix2 z j) := by
  obtain ⟨-, -, -, -, e4, e5, -, -⟩ := idx_facts t
  unfold iblk
  show V m c main_v4 (((cfg0.win 2).blk t).view.emb (ix2 z j)) = V m c main_v4 _
  refine congrArg (V m c main_v4) ?_
  funext a
  apply Fin.ext
  match a with
  | ⟨0, _⟩ => show win0_2.index t (0 : Fin 2) * 1 + 1 * z.val = z.val; omega
  | ⟨1, _⟩ => show win0_2.index t (1 : Fin 2) * 16384 + 1 * j.val = j.val; omega

/-- What point `t` writes back is block `t` of `G`: entry `(r, 0)` is the row value of array row `512·t + r`. -/
theorem flushed_eq (m : (ℓ : Loc nD τ sig) → Buf (Elt Ideal) ℓ) (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  funext y
  obtain ⟨r, u, rfl⟩ : ∃ (r : Fin 512) (u : Fin 1), y = ix2 r u := ⟨y 0, y 1, eq_ix2 y⟩
  show out0_3 (F := Ideal) (iblk m c 0 t) (iblk m c 1 t) (iblk m c 2 t) (ix2 r u) = G m c (((cfg0.win 3).blk t).view.emb (ix2 r u))
  refine (Cert.Body.out_apply _ _ _ r u).trans ?_
  have hrow : G m c (((cfg0.win 3).blk t).view.emb (ix2 r u))
      = Cert.Body.rowValue (n := 16384) (V m c main_arg1) (V m c main_v0) (V m c main_v4)
          ⟨512 * win0_3.index t (0 : Fin 2) + r.val, row_lt t r⟩ := by
    unfold G
    refine congrArg (Cert.Body.rowValue (n := 16384) (V m c main_arg1) (V m c main_v0) (V m c main_v4)) (Fin.ext ?_)
    show win0_3.index t (0 : Fin 2) * 512 + 1 * r.val = 512 * win0_3.index t (0 : Fin 2) + r.val
    omega
  rw [hrow]
  unfold Cert.Body.rowValue
  simp only [blk0_apply, blk1_apply, blk2_apply]

/-- An index of the output array is in point `t`'s block iff each coordinate is in the block's range on its axis. -/
theorem mem_blk (t : Fin cfg0.N) (i : S16384x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v5).slice (win0_3.rect t)).set ↔ _
  rw [View.set_slice_whole, Rect.mem_set_unit]
  exact Iff.rfl

/-- The blocks cover the array: row `p` lies in the block of the point whose row block index is `p / 512`. -/
theorem cover (i : S16384x1.Idx) : ∃ t : Fin cfg0.N, (cfg0.win 3).flush t = true ∧ i ∈ ((cfg0.win 3).blk t).view.set := by
  have hi0 : (i 0).val < 16384 := (i 0).isLt
  have hi1 : (i 1).val < 1 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1 ≤ (i 1).val ∧ (i 1).val < win0_3.index t (1 : Fin 2) * 1 + 1; omega

/-- After the run the output array holds, at row p, the row value of the three staged arrays as the region found them. -/
theorem final (m : (ℓ : Loc nD τ sig) → Buf (Elt Ideal) ℓ) (c : Dev nD) (p : Fin 16384) (u : Fin 1) :
    (dats m 0 c).arrAt 3 cfg0.N (ix2 p u)
      = Cert.Body.rowValue (n := 16384) (V m c main_arg1) (V m c main_v0) (V m c main_v4) p := by
  rw [(dats m 0 c).arrAt_eq_of_cover 3 (G m c) (fun t _ => flushed_eq m c t) cover]
  rfl

end Cert.Blocks

end
-- ==== Proof.HostSide.lean ====
/-
  The host operations around the kernel's one region, read at an index, at the ideal values.

  Before the region the program forms, from its first argument x (16384 rows of 64 coordinates),
    • the transpose of x, a 64 × 16384 array whose entry (k, j) is x[j,k];
    • the row of squared norms: x·x elementwise, summed over the second axis from the zero word, given a unit second
      axis and transposed, a 1 × 16384 array whose entry (0, j) is Σ_k x[j,k]² (the zero word is the real 0 and
      drops out of the sum).
  After the region it sums the 16384 × 1 output array over both axes from the zero word and divides by the word for
  16384. The sum over both axes of an array with a unit second axis is the sum over the first coordinate.

  Each statement is proved in two steps: the buffer's contents as the composed term of the operations that wrote it,
  then that term read at the index over a generic operand array.
-/
import proofs.«141313_j52467320488009_2_alg».proof.Proof.Gen.KernelIdeal.Frame
import proofs.«141313_j52467320488009_2_alg».proof.Proof.Nearest
import Idealize.ShloMosaic.Lib.StableHlo.Run
import Idealize.ShloMosaic.Lib.Pipeline.Value
import Idealize.ShloMosaic.Lib.Pipeline.FrameSuffix
import Idealize.ShloMosaic.Lib.ValueLayout
import Idealize.ShloMosaic.Lib.ValueIdx
import Idealize.ShloMosaic.PureOps.Ideal.Laws

noncomputable section

open scoped BigOperators

namespace Cert.HostSide

open Idealize.ShloMosaic Idealize.ShloMosaic.ValueIdx Idealize.SL.Sem Cert.KernelIdeal Cert.KernelIdeal.Gen
open Idealize.ShloMosaic.TcCoe

/-- Dropping the second axis of a 16384 × 64 array leaves the first. -/
theorem reduces_rows : S16384x64.Reduces [1] S16384 := by decide

/-- The first host operation's result, as the region finds it: the transpose of the first argument. -/
theorem v0_eq (m : (ℓ : Loc nD τ sig) → Buf (Elt Ideal) ℓ) (c : Dev nD) :
    (V m c main_v0 : S64x16384.Idx → EReal)
      = transpose S64x16384 [1, 0] (m ((c : Thread nD τ).loc main_arg0)) transposes_S16384x64_S64x16384_1_0 := by
  show StableHlo.after hostOps0 (fun b => m (c, b)) (Proc.devRef .tc main_v0) = _
  after_results

/-- The transposed point set as the region finds it. -/
theorem xt_apply (m : (ℓ : Loc nD τ sig) → Buf (Elt Ideal) ℓ) (c : Dev nD) (k : Fin 64) (j : Fin 16384) :
    V m c main_v0 (ix2 k j) = m ((c : Thread nD τ).loc main_arg0) (ix2 j k) := by
  refine (congrFun (v0_eq m c) (ix2 k j)).trans ?_
  exact transpose_ix2_apply _ _ k j

/-- The sixth host operation's result, as the region finds it: the row sums of the squares of the first argument,
    given a unit second axis and transposed. -/
theorem v4_eq (m : (ℓ : Loc nD τ sig) → Buf (Elt Ideal) ℓ) (c : Dev nD) :
    (V m c main_v4 : S1x16384.Idx → EReal)
      = transpose S1x16384 [1, 0] (broadcastInDim S16384x1 ![0] bcast_S16384_S16384x1_0
          (Host.reduceAdd (F := Ideal) (mulf (m ((c : Thread nD τ).loc main_arg0)) (m ((c : Thread nD τ).loc main_arg0)))
            (constant (F := Ideal) S_ .f32 0x00000000#32) reducesTo_S16384x64_S16384_d1 h_S_))
          transposes_S16384x1_S1x16384_1_0 := by
  show StableHlo.after hostOps0 (fun b => m (c, b)) (Proc.devRef .tc main_v4) = _
  after_results

/-- That term read at (0, j): the sum starts from the zero word, which is the real 0, so it is Σ_k x[j,k]². -/
theorem sqNorm_read (x : FVec Ideal S16384x64 .f32) (j : Fin 16384) :
    transpose S1x16384 [1, 0] (broadcastInDim S16384x1 ![0] bcast_S16384_S16384x1_0
          (Host.reduceAdd (F := Ideal) (mulf x x) (constant (F := Ideal) S_ .f32 0x00000000#32) reducesTo_S16384x64_S16384_d1 h_S_))
          transposes_S16384x1_S1x16384_1_0 (ix2 (0 : Fin 1) j) = Cert.Nearest.sqNorm x j := by
  rw [transpose_ix2_apply]
  rw [broadcastInDim_apply _ bcast_S16384_S16384x1_0 _ (ix2 j (0 : Fin 1)) (ix1 j) (fun a => match a with
    | ⟨0, _⟩ => by show j.val = if (16384 : Nat) = 1 then 0 else j.val; rw [if_neg (by decide)])]
  simp only [Host.reduceAdd, Ideal.hostReduceAdd_def]
  rw [Ideal.hostReduceAdd_single reducesTo_S16384x64_S16384_d1 reduces_rows]
  unfold Cert.Nearest.sqNorm
  rw [constant_apply, Ideal.ofBits_zero_f32, zero_add]
  refine Finset.sum_congr rfl fun k _ => ?_
  have e : reduces_rows.lift (ix1 j) k = ix2 j k :=
    funext fun a => Fin.ext (by match a with | ⟨0, _⟩ => rfl | ⟨1, _⟩ => rfl)
  rw [e]
  rfl

/-- The row of squared norms as the region finds it. -/
theorem xs_apply (m : (ℓ : Loc nD τ sig) → Buf (Elt Ideal) ℓ) (c : Dev nD) (j : Fin 16384) :
    V m c main_v4 (ix2 (0 : Fin 1) j) = Cert.Nearest.sqNorm (m ((c : Thread nD τ).loc main_arg0)) j :=
  (congrFun (v4_eq m c) (ix2 (0 : Fin 1) j)).trans (sqNorm_read _ j)

/-- After the region the output array is what the proof data says it holds. -/
theorem out_eq (m : (ℓ : Loc nD τ sig) → Buf (Elt Ideal) ℓ) (c : Dev nD) :
    Pipeline.withArrays (cfgs 0).spec c (V0 m c) (fun w => (dats m 0 c).arrAt w (cfgs 0).N) (Proc.devRef .tc main_v5)
      = (dats m 0 c).arrAt 3 cfg0.N :=
  Pipeline.withArrays_arr spec0 launch0.win.arr_inj c _ _ 3

/-- The sum of a 16384 × 1 array over both axes, from the zero word, over the count word, read at the one index. -/
theorem mean_read (A : FVec Ideal S16384x1 .f32) (i : S_.Idx) :
    Host.divf (F := Ideal) (Host.reduceAdd (F := Ideal) A (constant (F := Ideal) S_ .f32 0x00000000#32) reducesTo_S16384x1_S_d0_1 h_S_)
        (constant (F := Ideal) S_ .f32 0x46800000#32) i
      = Ideal.div (Cert.Nearest.zero + ∑ p : Fin 16384, A (ix2 p (0 : Fin 1))) Cert.Nearest.count := by
  show FloatOps.hostDivf _ _ = _
  rw [Ideal.hostDivf_def]
  simp only [Host.reduceAdd, Ideal.hostReduceAdd_def]
  rw [Ideal.hostReduceAdd_total reducesTo_S16384x1_S_d0_1 (fun b => b.elim0) A _ i]
  rw [sum_idx2]
  simp only [Fin.sum_univ_one]
  rfl

/-- The last host operation's result: the quotient of the output array's sum by the count word. -/
theorem tail_eq (m : (ℓ : Loc nD τ sig) → Buf (Elt Ideal) ℓ) (c : Dev nD) :
    (Pipeline.afterTail₀ cfgs (dats m) 0 (V0 m) [hostOps1] c main_v7 : S_.Idx → EReal)
      = Host.divf (F := Ideal) (Host.reduceAdd (F := Ideal) ((dats m 0 c).arrAt 3 cfg0.N)
          (constant (F := Ideal) S_ .f32 0x00000000#32) reducesTo_S16384x1_S_d0_1 h_S_) (constant (F := Ideal) S_ .f32 0x46800000#32) := by
  unfold Pipeline.afterTail₀
  show StableHlo.after hostOps1 _ (Proc.devRef .tc main_v7) = _
  after_results
  rw [out_eq]

/-- The program's result: the sum, from the zero word, of the output array's 16384 entries, over the count word. -/
theorem tail_apply (m : (ℓ : Loc nD τ sig) → Buf (Elt Ideal) ℓ) (c : Dev nD) (i : S_.Idx) :
    Pipeline.afterTail₀ cfgs (dats m) 0 (V0 m) [hostOps1] c main_v7 i
      = Ideal.div (Cert.Nearest.zero + (∑ p : Fin 16384, (dats m 0 c).arrAt 3 cfg0.N (ix2 p (0 : Fin 1)) : EReal)) Cert.Nearest.count :=
  (congrFun (tail_eq m c) i).trans (mean_read _ i)

end Cert.HostSide

end
-- ==== Proof.KernelValue.lean ====
/-
  The kernel program's result is the mean nearest distance.

  The region leaves, at row `p` of its output array, the row value of the three arrays it was given: the second argument
  `PF`, the transpose of the first argument `X`, and the row of `X`'s squared norms. With the transpose read as
  `XT[k, j] = X[j, k]` and the norms as `XS[0, j] = Σ_k X[j,k]²`, that row value is
  `√(max (Σ_k PF[p,k]² + min_j (Σ_k X[j,k]² − 2·Σ_k PF[p,k]·X[j,k])) 0)`, the distance from `PF[p]` to its nearest row of `X`
  with the minimum taken before the root. The operations after the region sum the 16384 rows from the zero word and divide
  by the count word: the mean.
-/
import proofs.«141313_j52467320488009_2_alg».proof.Proof.Gen.KernelIdeal.Frame
import proofs.«141313_j52467320488009_2_alg».proof.Proof.Nearest
import proofs.«141313_j52467320488009_2_alg».proof.Proof.Body
import proofs.«141313_j52467320488009_2_alg».proof.Proof.Blocks
import proofs.«141313_j52467320488009_2_alg».proof.Proof.HostSide

noncomputable section

open scoped BigOperators

namespace Cert.KernelValue

open Idealize.ShloMosaic Idealize.ShloMosaic.ValueIdx Idealize.ShloMosaic.TcCoe Idealize.SL.Sem
open Cert.KernelIdeal Cert.KernelIdeal.Gen Cert.Nearest

variable (m : (ℓ : Loc nD τ sig) → Buf (Elt Ideal) ℓ) (ρ : Dev nD → PrngReg)

/-- For any arrays: when `XT` is the transpose of `X` and `XS` the row of `X`'s squared norms, the row value of `PF`, `XT`,
    `XS` at row `p` is the distance from `PF[p]` to its nearest row of `X`. -/
theorem rowValue_eq_nearest (PF X : Pts) (XT : FVec Ideal S64x16384 .f32) (XS : FVec Ideal S1x16384 .f32)
    (hxt : ∀ (k : Fin 64) (j : Fin 16384), XT (ix2 k j) = X (ix2 j k))
    (hxs : ∀ j : Fin 16384, XS (ix2 (0 : Fin 1) j) = sqNorm X j) (p : Fin 16384) :
    Cert.Body.rowValue (n := 16384) PF XT XS p = nearest PF X p := by
  have hfam : (fun j : Fin 16384 => XS (ix2 (0 : Fin 1) j) - two * ∑ k : Fin 64, PF (ix2 p k) * XT (ix2 k j))
      = offset PF X p := by
    funext j
    unfold offset cross
    rw [hxs]
    refine congrArg (fun z => sqNorm X j - two * z) (Finset.sum_congr rfl fun k _ => ?_)
    rw [hxt]
  unfold Cert.Body.rowValue nearest sqNorm
  rw [hfam]

/-- The row value of the three staged arrays is the nearest distance of the two arguments. -/
theorem row_eq (c : Dev nD) (p : Fin 16384) :
    Cert.Body.rowValue (n := 16384) (V m c main_arg1) (V m c main_v0) (V m c main_v4) p
      = nearest (m ((c : Thread nD τ).loc main_arg1)) (m ((c : Thread nD τ).loc main_arg0)) p := by
  rw [V_main_arg1]
  exact rowValue_eq_nearest _ _ _ _ (fun k j => Cert.HostSide.xt_apply m c k j) (fun j => Cert.HostSide.xs_apply m c j) p

/-- The program's result, on every core, is the mean nearest distance of its two arguments. -/
theorem result_eq (c : Dev nD) (i : S_.Idx) :
    Pipeline.afterTail₀ cfgs (dats m) 0 (V0 m) [hostOps1] c main_v7 i
      = meanNearest (m ((c : Thread nD τ).loc main_arg1)) (m ((c : Thread nD τ).loc main_arg0)) := by
  rw [Cert.HostSide.tail_apply]
  unfold meanNearest
  refine congrArg (fun s => Ideal.div (zero + s) count) (Finset.sum_congr rfl fun p _ => ?_)
  exact (Cert.Blocks.final m c p 0).trans (row_eq m c p)

/-- Every weakly fair execution of the kernel program terminates with its result at the mean nearest distance and its
    arguments unchanged. -/
theorem run : θ_run defs (onTc (τ := τ) (main (F := Ideal))) ⟨m, fun _ => 0, ρ⟩ fun r => ∀ c : Dev nD,
      r.2.mem ((c.tc : Thread nD τ).loc main_v7)
        = (fun _ => meanNearest (m ((c.tc : Thread nD τ).loc main_arg1)) (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v7 (Pipeline.mem_restRefs_of main_v7 (by decide) (by decide))).trans (funext fun i => result_eq m c i),
      ((h c).2 main_arg0 (Pipeline.mem_restRefs_of main_arg0 (by decide) (by decide))).trans (W_main_arg0 m (dats m) c),
      ((h c).1 0).trans ((((dats m) 0 c).arrAt_in 0 rfl _).trans ((A_eq m c 0).trans (V_main_arg1 m c)))⟩)
    (run_main m ρ)

end Cert.KernelValue

end
-- ==== Proof.RefSide.lean ====
/-
  The reference program's result, read at the ideal values, is the mean nearest distance.

  For point sets PF and X (16384 rows of 64 coordinates) the program forms, for every pair of rows (p, j),
    a p = Σ_k PF[p,k]²,   b j = Σ_k X[j,k]²,   c p j = Σ_k PF[p,k]·X[j,k],
  then the clamped root  √(max ((a p + b j) − 2·c p j) 0),  takes for each p the minimum over j (folded from the word
  0x7F800000), sums these minima over p from the zero word and divides by the word for 16384.

  The steps below read the program one stage at a time:
    • the three sums at a pair (p, j) are the specification's sqNorm PF p, sqNorm X j and cross PF X p j
      (each of the two squared norms is a sum started from the zero word, which is the real 0 and drops out);
    • hence the clamped root at (p, j) is the term under the specification's minimum;
    • the minimum over one axis is a fold over that axis's coordinates, so the stage at p is nearestRef PF X p;
    • the last sum runs over the rank-1 index set, which is in bijection with Fin 16384 through its one coordinate,
      and nearestRef agrees with nearest, so the quotient is meanNearest PF X.
-/
import proofs.«141313_j52467320488009_2_alg».proof.Proof.Gen.ReferenceIdeal.Read
import proofs.«141313_j52467320488009_2_alg».proof.Proof.Nearest
import Idealize.ShloMosaic.Lib.ValueIdx
import Idealize.ShloMosaic.PureOps.Ideal.Laws
import Idealize.ShloMosaic.PureOps.Reduce

noncomputable section

open scoped BigOperators

namespace Cert.RefSide

open Cert.ReferenceIdeal Cert.ReferenceIdeal.Gen Cert.ReferenceIdeal.Read Cert.Nearest
open Idealize.ShloMosaic Idealize.ShloMosaic.ValueIdx

/-- The squared norm of row p of PF, broadcast along the second axis: Σ_k PF[p,k]². -/
theorem sqNormPF_apply (PF : FVec Ideal S16384x64 .f32) (p j : Fin 16384) :
    val_main_v9 (F := Ideal) PF (ix2 p j) = sqNorm PF p := by
  rw [val_main_v9_apply, val_main_v2_apply, val_main_v1_apply, val_main_cst_apply]
  unfold sqNorm
  rw [Ideal.ofBits_def, Ideal.ofBits_zero_f32, zero_add]
  refine Finset.sum_congr rfl fun k _ => ?_
  rw [val_main_v0_apply, Ideal.mulf_def]
  have e : idx_main_v1 (idx_main_v2 (idx_main_v9 (ix2 p j))) k = ix2 p k :=
    funext fun a => Fin.ext (by match a with | ⟨0, _⟩ => rfl | ⟨1, _⟩ => rfl)
  rw [e]

/-- The squared norm of row j of X, transposed and broadcast along the first axis: Σ_k X[j,k]². -/
theorem sqNormX_apply (X : FVec Ideal S16384x64 .f32) (p j : Fin 16384) :
    val_main_v10 (F := Ideal) X (ix2 p j) = sqNorm X j := by
  rw [val_main_v10_apply, val_main_v6_apply, val_main_v5_apply, val_main_v4_apply, val_main_cst_0_apply]
  unfold sqNorm
  rw [Ideal.ofBits_def, Ideal.ofBits_zero_f32, zero_add]
  refine Finset.sum_congr rfl fun k _ => ?_
  rw [val_main_v3_apply, Ideal.mulf_def]
  have e : idx_main_v4 (idx_main_v5 (idx_main_v6 (idx_main_v10 (ix2 p j)))) k = ix2 j k :=
    funext fun a => Fin.ext (by match a with | ⟨0, _⟩ => rfl | ⟨1, _⟩ => rfl)
  rw [e]

/-- The product of PF with the transpose of X at (p, j): Σ_k PF[p,k]·X[j,k]. -/
theorem cross_apply (X PF : FVec Ideal S16384x64 .f32) (p j : Fin 16384) :
    val_main_v8 (F := Ideal) X PF (ix2 p j) = cross PF X p j := by
  rw [val_main_v8_apply]
  unfold cross
  refine Finset.sum_congr rfl fun k _ => ?_
  rw [val_main_v7_apply]
  have el : lidx_main_v8 (ix2 p j) k = ix2 p k :=
    funext fun a => Fin.ext (by match a with | ⟨0, _⟩ => rfl | ⟨1, _⟩ => rfl)
  have er : idx_main_v7 (ridx_main_v8 (ix2 p j) k) = ix2 j k :=
    funext fun a => Fin.ext (by match a with | ⟨0, _⟩ => rfl | ⟨1, _⟩ => rfl)
  rw [el, er]

/-- The clamped root at the pair (p, j). -/
theorem dist_apply (X PF : FVec Ideal S16384x64 .f32) (p j : Fin 16384) :
    val_main_v17 (F := Ideal) X PF (ix2 p j)
      = Ideal.sqrt (max ((sqNorm PF p + sqNorm X j) - two * cross PF X p j) zero) := by
  rw [val_main_v17_apply, val_main_v16_apply, val_main_v14_apply, val_main_v11_apply, val_main_v13_apply,
    val_main_v12_apply, val_main_cst_1_apply, val_main_v15_apply, val_main_cst_2_apply,
    sqNormPF_apply, sqNormX_apply, cross_apply]
  rfl

/-- Dropping the second axis of a 16384 × 16384 array leaves the first. -/
theorem reduces_axis1 : S16384x16384.Reduces [1] S16384 := by decide

/-- The minimum over the second axis at row p is the specification's minimum of the clamped roots. -/
theorem rowMin_apply (X PF : FVec Ideal S16384x64 .f32) (p : Fin 16384) :
    val_main_v18 (F := Ideal) X PF (ix1 p) = nearestRef PF X p := by
  have h1 : ∀ k : Fin 16384, val_main_v17 (F := Ideal) X PF (ix2 p k)
      = Ideal.sqrt (max ((sqNorm PF p + sqNorm X k) - two * cross PF X p k) zero) := fun k => dist_apply X PF p k
  unfold val_main_v18 nearestRef rowMin
  generalize val_main_v17 (F := Ideal) X PF = y at h1 ⊢
  rw [Host.reduce_eq_fold_single (FloatOps.minimumf (F := Ideal) (φ := .f32)) y (val_main_cst_3 (F := Ideal))
    reducesTo_S16384x16384_S16384_d1 reduces_axis1 h_S_ (ix1 p)]
  show Finset.fold min top (fun k : Fin 16384 => y (reduces_axis1.lift (ix1 p) k)) Finset.univ = _
  refine Finset.fold_congr fun k _ => ?_
  refine Eq.trans ?_ (h1 k)
  exact congrArg y (funext fun a => Fin.ext (by match a with | ⟨0, _⟩ => rfl | ⟨1, _⟩ => rfl))

/-- A rank-1 index is its one coordinate. -/
def idxEquiv1 : S16384.Idx ≃ Fin 16384 where
  toFun j := j 0
  invFun p := ix1 p
  left_inv j := (eq_ix1 j).symm
  right_inv _ := rfl

/-- The reference's result is the mean nearest distance. -/
theorem result_eq (X PF : FVec Ideal Cert.ReferenceIdeal.S16384x64 .f32) (i : Cert.ReferenceIdeal.S_.Idx) :
    Cert.ReferenceIdeal.Read.val_main_v20 (F := Ideal) X PF i = Cert.Nearest.meanNearest PF X := by
  rw [val_main_v20_apply, val_main_v19_apply, val_main_cst_4_apply, val_main_cst_5_apply, Ideal.hostDivf_def]
  unfold meanNearest
  rw [← Equiv.sum_comp idxEquiv1.symm (val_main_v18 (F := Ideal) X PF)]
  refine congrArg (fun s => Ideal.div (zero + s) count) (Finset.sum_congr rfl fun p _ => ?_)
  exact (rowMin_apply X PF p).trans (nearestRef_eq PF X p)

end Cert.RefSide

end
-- ==== Proof.lean ====
/-
  Two programs compute the mean, over the 16384 rows `p` of a point set `PF`, of the Euclidean distance from `PF[p]` to the
  nearest of the 16384 rows of a second set `X` (64 coordinates each), the squared distance written
  `Σ_k PF[p,k]² + Σ_k X[j,k]² − 2·Σ_k PF[p,k]·X[j,k]` and clamped at zero before the root.

  The reference takes, for each `p`, the minimum over `j` of the roots. The kernel works on 512 rows of `PF` at a time
  against all of `X` transposed: it takes the minimum over `j` of `Σ_k X[j,k]² − 2·Σ_k PF[p,k]·X[j,k]` (eight runs of 2048
  columns, folded together from `+∞`), adds `Σ_k PF[p,k]²`, clamps and takes one root per row. On the extended reals the two
  agree: addition is associative, `v ↦ √(max (a + v) 0)` is monotone and so commutes with the minimum of a nonempty finite
  family, and a minimum over 16384 indices is the minimum of the minima of its eight runs (module `Nearest`). No entry needs
  to be finite for this, so the precondition is not opened.

  `Body` reads what a grid point's body leaves in its block, `Blocks` carries that to the whole output array, `HostSide`
  reads the operations before and after the region, `KernelValue` puts the kernel program's result together, and `RefSide`
  reads the reference's result; both are the one term `meanNearest PF X`.
-/
import proofs.«141313_j52467320488009_2_alg».proof.Defs
import proofs.«141313_j52467320488009_2_alg».proof.Proof.Gen.Kernel
import proofs.«141313_j52467320488009_2_alg».proof.Proof.Gen.Kernel.Skeleton
import proofs.«141313_j52467320488009_2_alg».proof.Proof.Gen.Kernel.Launch
import proofs.«141313_j52467320488009_2_alg».proof.Proof.Gen.Kernel.Points
import proofs.«141313_j52467320488009_2_alg».proof.Proof.Gen.Kernel.Frame
import proofs.«141313_j52467320488009_2_alg».proof.Proof.Gen.KernelIdeal
import proofs.«141313_j52467320488009_2_alg».proof.Proof.Gen.KernelIdeal.Skeleton
import proofs.«141313_j52467320488009_2_alg».proof.Proof.Gen.KernelIdeal.Launch
import proofs.«141313_j52467320488009_2_alg».proof.Proof.Gen.KernelIdeal.Points
import proofs.«141313_j52467320488009_2_alg».proof.Proof.Gen.KernelIdeal.Frame
import proofs.«141313_j52467320488009_2_alg».proof.Proof.Gen.ReferenceIdeal
import proofs.«141313_j52467320488009_2_alg».proof.Proof.Gen.Pre_finite_inputs
import proofs.«141313_j52467320488009_2_alg».proof.Proof.Gen.ReferenceIdeal.Run
import proofs.«141313_j52467320488009_2_alg».proof.Proof.Gen.ReferenceIdeal.Read
import proofs.«141313_j52467320488009_2_alg».proof.Proof.KernelValue
import proofs.«141313_j52467320488009_2_alg».proof.Proof.RefSide
import Idealize.ShloMosaic.Adequacy
import Idealize.ShloMosaic.Init

noncomputable section

namespace Cert.Proof

open Idealize.ShloMosaic Idealize.SL.Sem Cert.Kernel

/-- The kernel program runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the two arguments both programs end at the mean nearest distance of those arguments. -/
theorem algebraic : Cert.algebraic_KernelIdeal_ReferenceIdeal := by
  intro m ρ m' ρ' _ hagree
  refine ⟨fun c _ => Cert.Nearest.meanNearest (m ((c.tc : Thread Cert.KernelIdeal.nD Cert.KernelIdeal.τ).loc Cert.KernelIdeal.main_arg1))
      (m ((c.tc : Thread Cert.KernelIdeal.nD Cert.KernelIdeal.τ).loc Cert.KernelIdeal.main_arg0)),
    Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2]
  exact funext fun i => Cert.RefSide.result_eq _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
